-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S16384x512 .f32) (main_arg1 : FVec F S2048x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S16384x512 : Shape := ⟨2, ![16384, 512]⟩
abbrev S2048x512 : Shape := ⟨2, ![2048, 512]⟩
abbrev S16384x2048 : Shape := ⟨2, ![16384, 2048]⟩
abbrev S256x512 : Shape := ⟨2, ![256, 512]⟩
abbrev S256x2048 : Shape := ⟨2, ![256, 2048]⟩
abbrev S512x2048 : Shape := ⟨2, ![512, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S16384x2048, .f32⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S256x2048, .f32⟩
  | .local _ .vmem, ⟨4, _⟩ => ⟨S256x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x512_S256x512_0_0 : ∀ a, (![0, 0] : Fin 2 → Nat) a + S256x512.size a ≤ S256x512.size a
  h_S256x512 : 0 < S256x512.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  transposes_S2048x512_p1_0_S512x2048 : S2048x512.Transposes [1, 0] S512x2048
  reduces_S256x512_S256 : S256x512.Reduces [1] S256
  shapeCasts_S256_S256x1 : S256.ShapeCasts S256x1
  reduces_S2048x512_S2048 : S2048x512.Reduces [1] S2048
  shapeCasts_S2048_S1x2048 : S2048.ShapeCasts S1x2048
  broadcasts_S256x1_S256x2048 : S256x1.Broadcasts S256x2048
  broadcasts_S1x2048_S256x2048 : S1x2048.Broadcasts S256x2048
  reduces_S256x2048_S256 : S256x2048.Reduces [1] S256
  inb_S256x2048_S256x2048_0_0 : ∀ a, (![0, 0] : Fin 2 → Nat) a + S256x2048.size a ≤ S256x2048.size a
  h_S256x2048 : 0 < S256x2048.numel
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S512x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x2048, .f32⟩
  | .hbm, ⟨35, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  transposes_S2048x512_S512x2048_1_0 : S2048x512.Transposes [1, 0] S512x2048
  bcast_S_S16384x2048 : S_.BroadcastsInDim S16384x2048 (![] : Fin 0 → Fin S16384x2048.rank)
  reducesTo_S16384x2048_S16384_d1 : S16384x2048.ReducesTo [1] S16384
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.SoftAssign.lean ====
/-
  THE SOFT ASSIGNMENT OF POINTS TO CENTRES, as one function of the two arrays.

  `x` holds `n` points and `c` holds 2048 centres, each a row of 512 coordinates. For point `r` and centre `q`:
    • the squared distance by the polarisation identity, clipped at zero:
        `d r q = max (‖x r‖² + ‖c q‖² − 2 · ⟨x r, c q⟩) 0`, with `‖a r‖² = ∑ k, a r k · a r k` and `⟨x r, c q⟩ = ∑ k, x r k · c q k`;
    • the heavy-tailed similarity `s r q = 1 / (1 + d r q)`;
    • the assignment `s r q / ∑ q', s r q'`: each point's similarities normalised to sum to one.
  Row `r` of the table depends on row `r` of `x` only (and on all of `c`), so the table of a block of rows of `x` is that block
  of rows of the table: `assign_of_row`. The number of points is a parameter for that reason; the centres' and the
  coordinates' counts are the literal ones. The literals `2`, `1`, `0` stay the single-precision patterns the programs spell.
-/
import Idealize.ShloMosaic.PureOps.Ideal
import Idealize.ShloMosaic.Lib.ValueIdx

noncomputable section

open scoped BigOperators

namespace Cert.SoftAssign

open Idealize.ShloMosaic Idealize.ShloMosaic.ValueIdx

/-- `‖a r‖²`: the squared length of row `r`. -/
def sqLen {n : ℕ} (a : (⟨2, ![n, 512]⟩ : Shape).Idx → EReal) (r : Fin n) : EReal :=
  ∑ k : Fin 512, a (ix2 r k) * a (ix2 r k)

/-- `⟨x r, c q⟩`: the inner product of point `r` with centre `q`. -/
def inner {n : ℕ} (x : (⟨2, ![n, 512]⟩ : Shape).Idx → EReal) (c : (⟨2, ![2048, 512]⟩ : Shape).Idx → EReal)
    (r : Fin n) (q : Fin 2048) : EReal :=
  ∑ k : Fin 512, x (ix2 r k) * c (ix2 q k)

/-- The squared distance of point `r` to centre `q`, by the polarisation identity, clipped at zero. -/
def sqDist {n : ℕ} (x : (⟨2, ![n, 512]⟩ : Shape).Idx → EReal) (c : (⟨2, ![2048, 512]⟩ : Shape).Idx → EReal)
    (r : Fin n) (q : Fin 2048) : EReal :=
  max (sqLen x r + sqLen c q - Ideal.ofBits .f32 0x40000000#32 * inner x c r q) (Ideal.ofBits .f32 0x00000000#32)

/-- The similarity `1 / (1 + d)` of point `r` to centre `q`. -/
def simil {n : ℕ} (x : (⟨2, ![n, 512]⟩ : Shape).Idx → EReal) (c : (⟨2, ![2048, 512]⟩ : Shape).Idx → EReal)
    (r : Fin n) (q : Fin 2048) : EReal :=
  Ideal.div (Ideal.ofBits .f32 0x3F800000#32) (Ideal.ofBits .f32 0x3F800000#32 + sqDist x c r q)

/-- The assignment of point `r` to centre `q`: its similarity over the sum of the point's similarities to all centres. -/
def assign {n : ℕ} (x : (⟨2, ![n, 512]⟩ : Shape).Idx → EReal) (c : (⟨2, ![2048, 512]⟩ : Shape).Idx → EReal)
    (r : Fin n) (q : Fin 2048) : EReal :=
  Ideal.div (simil x c r q) (∑ q' : Fin 2048, simil x c r q')

/-- The whole table of assignments. -/
def table {n : ℕ} (x : (⟨2, ![n, 512]⟩ : Shape).Idx → EReal) (c : (⟨2, ![2048, 512]⟩ : Shape).Idx → EReal) :
    (⟨2, ![n, 2048]⟩ : Shape).Idx → EReal :=
  fun i => assign x c (i 0) (i 1)

theorem table_apply {n : ℕ} (x : (⟨2, ![n, 512]⟩ : Shape).Idx → EReal) (c : (⟨2, ![2048, 512]⟩ : Shape).Idx → EReal)
    (r : Fin n) (q : Fin 2048) : table x c (ix2 r q) = assign x c r q := rfl

/-- A point's assignments depend on that point's row only: if row `p` of `x'` is row `r` of `x`, the two rows of
    assignments agree. -/
theorem assign_of_row {n n' : ℕ} (x : (⟨2, ![n, 512]⟩ : Shape).Idx → EReal) (x' : (⟨2, ![n', 512]⟩ : Shape).Idx → EReal)
    (c : (⟨2, ![2048, 512]⟩ : Shape).Idx → EReal) (r : Fin n) (p : Fin n')
    (h : ∀ k : Fin 512, x' (ix2 p k) = x (ix2 r k)) (q : Fin 2048) : assign x' c p q = assign x c r q := by
  have hs : ∀ q' : Fin 2048, simil x' c p q' = simil x c r q' := fun q' => by
    unfold simil sqDist sqLen inner
    simp only [h]
  unfold assign
  simp only [hs]

end Cert.SoftAssign

end
-- ==== Proof.CauchyLaw.lean ====
/-
  THE ONE SCALAR LAW that joins the two programs. With `d ≥ 0` a squared distance on the extended reals, the heavy-tailed
  similarity of a point to a centre is written `1 / (1 + d)` on one side and `(1 + d / 1) ^ (-1)` on the other. Dividing by
  `1` changes nothing. The base `e = 1 + d` is at least `1`, so it is a real number `≥ 1` or `+∞`: for a real `e ≠ 0` the
  quotient `1 / e` and the power `e ^ (-1)` are both `e⁻¹`; at `+∞` both are `0`. (The two would differ at `e = 0`, where the
  quotient is `+∞` and the power `0`, and at `-∞`; `e ≥ 1` excludes both.) No operand need be finite.
-/
import Idealize.ShloMosaic.PureOps.Ideal
import Idealize.ShloMosaic.PureOps.Ideal.Laws

noncomputable section

namespace Cert.SoftAssign

open Idealize.ShloMosaic

/-- The single-precision pattern of `1.0` denotes `1`. -/
theorem word_one : Ideal.ofBits .f32 0x3F800000#32 = 1 := by
  simp [Ideal.ofBits, Ideal.ieee, -EReal.coe_mul]; norm_num

/-- The single-precision pattern of `-1.0` denotes `-1`. -/
theorem word_negOne : Ideal.ofBits .f32 0xBF800000#32 = ((-1 : ℝ) : EReal) := by
  simp [Ideal.ofBits, Ideal.ieee, -EReal.coe_mul]; norm_num

/-- A quotient by `1` is its numerator, at every extended real. -/
theorem div_by_one (x : EReal) : Ideal.div x 1 = x := by
  unfold Ideal.div
  rw [if_neg one_ne_zero]
  have h : (1 : EReal)⁻¹ = 1 := by
    rw [← EReal.coe_one, ← EReal.coe_inv, inv_one]
  rw [h, mul_one]

/-- For a base `e ≥ 1`, the reciprocal `1 / e` is the power `e ^ (-1)`. -/
theorem recip_eq_pow {e : EReal} (he : 1 ≤ e) : Ideal.div 1 e = Ideal.pow e ((-1 : ℝ) : EReal) := by
  induction e using EReal.rec with
  | bot => exact absurd (le_bot_iff.mp he) (by rw [← EReal.coe_one]; exact EReal.coe_ne_bot 1)
  | top =>
    unfold Ideal.div
    rw [if_neg (by simp), EReal.inv_top, mul_zero, Ideal.pow_top,
      if_neg (by simp), if_neg (by simp)]
  | coe r =>
    have hr : (1 : ℝ) ≤ r := by exact_mod_cast he
    have hr0 : r ≠ 0 := by linarith
    unfold Ideal.div
    rw [if_neg (by exact_mod_cast hr0), one_mul, Ideal.pow_coe_coe, ← EReal.coe_inv]
    exact congrArg _ (Real.rpow_neg_one r).symm

/-- The similarity two ways, on the literal patterns the two programs spell: for every extended real `s`, with
    `d = max s 0`, `(1 + d / 1) ^ (-1) = 1 / (1 + d)`. -/
theorem pow_form_eq_recip (s : EReal) :
    Ideal.pow (Ideal.ofBits .f32 0x3F800000#32
        + Ideal.div (max s (Ideal.ofBits .f32 0x00000000#32)) (Ideal.ofBits .f32 0x3F800000#32))
      (Ideal.ofBits .f32 0xBF800000#32)
    = Ideal.div (Ideal.ofBits .f32 0x3F800000#32)
        (Ideal.ofBits .f32 0x3F800000#32 + max s (Ideal.ofBits .f32 0x00000000#32)) := by
  rw [word_one, word_negOne, Ideal.ofBits_zero_f32, div_by_one]
  refine (recip_eq_pow ?_).symm
  calc (1 : EReal) = 1 + 0 := (add_zero 1).symm
    _ ≤ 1 + max s 0 := add_le_add le_rfl (le_max_right s 0)

end Cert.SoftAssign

end
-- ==== Proof.RefTable.lean ====
/-
  THE REFERENCE PROGRAM COMPUTES THE TABLE OF ASSIGNMENTS.

  Read one operation at a time, at point `r` and centre `q`: the two row sums of squares are the squared lengths (the sums
  start from the zero pattern), the contraction of `x` with the transposed centres is the inner product `∑ k, x r k · c q k`,
  so the clipped combination is the squared distance. The reference then forms `(1 + d / 1) ^ (-1)`, which is the
  similarity `1 / (1 + d)` by the scalar law, sums a point's similarities over the 2048 centres and divides.
-/
import proofs.«111285_j72086731096718_1_alg».proof.Proof.Gen.ReferenceIdeal.Read
import proofs.«111285_j72086731096718_1_alg».proof.Proof.SoftAssign
import proofs.«111285_j72086731096718_1_alg».proof.Proof.CauchyLaw

noncomputable section

open scoped BigOperators

namespace Cert.SoftAssign.Ref

open Cert.ReferenceIdeal Cert.ReferenceIdeal.Read Idealize.ShloMosaic Idealize.ShloMosaic.ValueIdx Cert.SoftAssign

variable (x : (⟨S16384x512, .f32⟩ : BufTy).Contents (Elt Ideal)) (c : (⟨S2048x512, .f32⟩ : BufTy).Contents (Elt Ideal))

/-! ## Where each operation reads its operand, at point `r`, centre `q` and coordinate `k` -/

theorem at_sqLen_x (r : Fin 16384) (q : Fin 2048) (k : Fin 512) :
    idx_main_v1 (idx_main_v2 (idx_main_v6 (ix2 r q))) k = ix2 r k :=
  funext fun a => Fin.ext (by match a with | ⟨0, _⟩ => rfl | ⟨1, _⟩ => rfl)

theorem at_sqLen_c (r : Fin 16384) (q : Fin 2048) (k : Fin 512) :
    idx_main_v4 (idx_main_v5 (idx_main_v7 (ix2 r q))) k = ix2 q k :=
  funext fun a => Fin.ext (by match a with | ⟨0, _⟩ => rfl | ⟨1, _⟩ => rfl)

theorem at_inner_x (r : Fin 16384) (q : Fin 2048) (k : Fin 512) : lidx_main_v10 (ix2 r q) k = ix2 r k :=
  funext fun a => Fin.ext (by match a with | ⟨0, _⟩ => rfl | ⟨1, _⟩ => rfl)

theorem at_inner_c (r : Fin 16384) (q : Fin 2048) (k : Fin 512) :
    idx_main_v9 (ridx_main_v10 (ix2 r q) k) = ix2 q k :=
  funext fun a => Fin.ext (by match a with | ⟨0, _⟩ => rfl | ⟨1, _⟩ => rfl)

theorem at_total (r : Fin 16384) (q : Fin 2048) (k : Fin 2048) :
    idx_main_v22 (idx_main_v23 (idx_main_v24 (ix2 r q))) k = ix2 r k :=
  funext fun a => Fin.ext (by match a with | ⟨0, _⟩ => rfl | ⟨1, _⟩ => rfl)

/-! ## The stages -/

/-- The clipped combination is the squared distance. -/
theorem clipped_eq (r : Fin 16384) (q : Fin 2048) :
    val_main_v15 (F := Ideal) x c (ix2 r q) = sqDist x c r q := by
  rw [val_main_v15_apply, val_main_v13_apply, val_main_v8_apply, val_main_v6_apply, val_main_v2_apply, val_main_v1_apply,
    val_main_v7_apply, val_main_v5_apply, val_main_v4_apply, val_main_v12_apply, val_main_v11_apply, val_main_v10_apply,
    val_main_v14_apply, val_main_cst_apply, val_main_cst_0_apply, val_main_cst_1_apply, val_main_cst_2_apply]
  simp only [at_sqLen_x, at_sqLen_c, at_inner_x, at_inner_c, val_main_v0_apply, val_main_v3_apply, val_main_v9_apply,
    Ideal.ofBits_def, Ideal.mulf_def, Ideal.addf_def, Ideal.subf_def, Ideal.maximumf_def, Ideal.ofBits_zero_f32, zero_add]
  unfold sqDist sqLen inner
  rw [Ideal.ofBits_zero_f32]

/-- The power form is the similarity. -/
theorem power_eq (r : Fin 16384) (q : Fin 2048) :
    val_main_v21 (F := Ideal) x c (ix2 r q) = simil x c r q := by
  rw [val_main_v21_apply, val_main_v19_apply, val_main_v18_apply, val_main_cst_4_apply, val_main_v17_apply,
    val_main_v16_apply, val_main_cst_3_apply, val_main_v20_apply, val_main_cst_5_apply, clipped_eq]
  simp only [Ideal.ofBits_def, Ideal.addf_def, Ideal.hostDivf_def, Ideal.hostPowf_def]
  exact pow_form_eq_recip _

/-- The reference's result is the table of assignments. -/
theorem result_eq : val_main_v25 (F := Ideal) x c = table x c := by
  funext i
  obtain ⟨r, q, rfl⟩ : ∃ (r : Fin 16384) (q : Fin 2048), i = ix2 r q := ⟨i 0, i 1, eq_ix2 i⟩
  rw [val_main_v25_apply, val_main_v24_apply, val_main_v23_apply, val_main_v22_apply, val_main_cst_6_apply, power_eq]
  simp only [at_total, power_eq, Ideal.ofBits_def, Ideal.hostDivf_def, Ideal.ofBits_zero_f32, zero_add]
  rfl

end Cert.SoftAssign.Ref

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.BlockRows.lean ====
/-
  ONE BLOCK OF 256 POINTS: what the body stores is the table of assignments of the block's points.

  The body holds a block `x0` of 256 points and all 2048 centres `x1`. Read at point `p` of the block and centre `q`:
    • a sum along a row's coordinates, started from the zero pattern, is `∑ k` of the row's entries; kept as a one-column
      array and spread over the columns it is the row's total at every column; recast as a one-row array and spread over
      the rows it is the column index's total at every row;
    • the product of the block with the TRANSPOSED centres, accumulated into zeros, is `∑ k, x0 p k · x1 q k`: the
      narrowing of both operands changes nothing on the extended reals, and the transposed array at `(k, q)` is the
      centres at `(q, k)`;
    • the rest is entry by entry.
  So the stored value at `(p, q)` is the assignment of point `p` of the block to centre `q`.
-/
import proofs.«111285_j72086731096718_1_alg».proof.Proof.Gen.KernelIdeal.Skeleton
import proofs.«111285_j72086731096718_1_alg».proof.Proof.SoftAssign
import proofs.«111285_j72086731096718_1_alg».proof.Proof.LibMatOps
import proofs.«111285_j72086731096718_1_alg».proof.Proof.LibColumnCast
import Idealize.ShloMosaic.Lib.ValueLayout
import Idealize.ShloMosaic.PureOps.Ideal.Laws

noncomputable section

open scoped BigOperators

namespace Cert.SoftAssign.Block

open Cert.KernelIdeal Cert.KernelIdeal.Gen Idealize.ShloMosaic Idealize.ShloMosaic.ValueIdx Cert.SoftAssign

/-! ## Totals along a row's coordinates -/

/-- A sum along the last axis of an `a × b` array, started from the zero pattern, read at row `r`. -/
theorem lane_sum_at {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  refine Finset.sum_congr rfl fun k _ => congrArg v ?_
  exact funext fun d => Fin.ext (by match d with | ⟨0, _⟩ => rfl | ⟨1, _⟩ => rfl)

/-- The rows' totals kept as a column and spread over `n` columns: at `(p, q)`, row `p`'s total. -/
theorem row_total_spread {a b n : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (p : Fin a) (q : Fin n) :
    broadcastTo ⟨2, ![a, n]⟩ (shapeCast ⟨2, ![a, 1]⟩ (multiReduction .add [1] ⟨1, ![a]⟩ v 0x00000000#32 h hφ hacc) hc) hb (ix2 p q)
      = ∑ k : Fin b, v (ix2 p k) :=
  (Cert.MatOps.broadcastTo_a1_ab_apply _ hb p q).trans
    ((Cert.LibColumnCast.column_cast _ hc p 0).trans (lane_sum_at v h hφ hacc p))

/-- The rows' totals of an `n × b` array recast as one row and spread over `a` rows: at `(p, q)`, row `q`'s total. -/
theorem row_total_as_row_spread {a b n : ℕ} (v : FVec Ideal ⟨2, ![n, b]⟩ .f32)
    (h : (⟨2, ![n, b]⟩ : Shape).Reduces [1] ⟨1, ![n]⟩)
    (hφ : FKind.Formats .f32) (hacc : (0x00000000#32 : BitVec 32) = 0x00000000#32)
    (hc : (⟨1, ![n]⟩ : Shape).ShapeCasts ⟨2, ![1, n]⟩) (hb : (⟨2, ![1, n]⟩ : Shape).Broadcasts ⟨2, ![a, n]⟩)
    (p : Fin a) (q : Fin n) :
    broadcastTo ⟨2, ![a, n]⟩ (shapeCast ⟨2, ![1, n]⟩ (multiReduction .add [1] ⟨1, ![n]⟩ v 0x00000000#32 h hφ hacc) hc) hb (ix2 p q)
      = ∑ k : Fin b, v (ix2 q k) :=
  (broadcastTo_1b_ab_apply _ hb p q).trans
    ((shapeCast_a_1a_apply _ hc 0 q).trans (lane_sum_at v h hφ hacc q))

/-! ## The product with the transposed centres -/

/-- The printed dimension numbers are the plain product's. -/
theorem dims_eq : dot_S256x512_S512x2048_S256x2048_1_0_0_1_n_n
    = Cert.MatOps.plainDot 256 512 2048 Facts₀.dot_S256x512_S512x2048_S256x2048_1_0_0_1_n_n_wf := rfl

/-- The block times the transposed centres, both narrowed, into zeros: at `(p, q)` the inner product of point `p` with
    centre `q`. -/
theorem product_at (x0 : FVec Ideal S256x512 .f32) (x1 : FVec Ideal S2048x512 .f32) (p : Fin 256) (q : Fin 2048) :
    matmul dot_S256x512_S512x2048_S256x2048_1_0_0_1_n_n none (truncf .bf16 x0 Facts₀.bitsLt_bf16_f32)
        (transpose S512x2048 [1, 0] (truncf .bf16 x1 Facts₀.bitsLt_bf16_f32) Facts₀.transposes_S2048x512_p1_0_S512x2048)
        (constant S256x2048 .f32 0x00000000#32) (ix2 p q)
      = inner x0 x1 p q := by
  rw [dims_eq]
  refine (Cert.MatOps.matmul_plain_apply _ none _ _ p q).trans ?_
  unfold inner
  refine Finset.sum_congr rfl fun k _ => ?_
  rw [transpose_ix2_apply]
  rfl

/-! ## The stored value -/

/-- An array divided, entry by entry, by its rows' totals (kept as a column and spread back): if row `p` of the array is
    `s`, the quotient at `(p, q)` is `s q / ∑ q', s q'`. -/
theorem normalised_at (S : FVec Ideal S256x2048 .f32) (s : Fin 2048 → EReal) (p : Fin 256)
    (hS : ∀ q' : Fin 2048, S (ix2 p q') = s q')
    (h : S256x2048.Reduces [1] S256) (hφ : FKind.Formats .f32) (hacc : (0x00000000#32 : BitVec 32) = 0x00000000#32)
    (hc : S256.ShapeCasts S256x1) (hb : S256x1.Broadcasts S256x2048) (q : Fin 2048) :
    divf S (broadcastTo S256x2048 (shapeCast S256x1 (multiReduction .add [1] S256 S 0x00000000#32 h hφ hacc) hc) hb) (ix2 p q)
      = Ideal.div (s q) (∑ q' : Fin 2048, s q') := by
  refine (divf_apply _ _ (ix2 p q)).trans (congrArg₂ Ideal.div (hS q) ?_)
  exact (row_total_spread S h hφ hacc hc hb p q).trans (Finset.sum_congr rfl fun q' _ => hS q')

/-- What the body stores, at point `p` of the block and centre `q`: the assignment of that point to that centre. -/
theorem payload_at (x0 : Vec Ideal S256x512 .f32) (x1 : Vec Ideal S2048x512 .f32) (p : Fin 256) (q : Fin 2048) :
    k0_pay1 (F := Ideal) x0 x1 (ix2 p q) = assign x0 x1 p q := by
  unfold k0_pay1
  dsimp only
  refine normalised_at _ (simil x0 x1 p) p (fun q' => ?_) _ _ _ _ _ q
  unfold simil sqDist
  simp only [divf_apply, addf_apply, subf_apply, mulf_apply, maximumf_apply, broadcast_apply, Ideal.ofBits_def]
  refine congrArg₂ Ideal.div rfl (congrArg₂ HAdd.hAdd rfl (congrArg₂ max
    (congrArg₂ HSub.hSub (congrArg₂ HAdd.hAdd ?_ ?_) (congrArg₂ HMul.hMul rfl ?_)) rfl))
  · exact row_total_spread (mulf x0 x0) _ _ _ _ _ p q'
  · exact row_total_as_row_spread (mulf x1 x1) _ _ _ _ _ p q'
  · exact product_at x0 x1 p q'

end Cert.SoftAssign.Block

end
-- ==== Proof.WholeTable.lean ====
/-
  FROM THE 64 BLOCKS TO THE WHOLE TABLE.

  The grid has 64 points. Point `t` is handed rows `256 t … 256 t + 255` of the points array and the whole centres array,
  and writes rows `256 t … 256 t + 255` of the result. What it writes is the table of assignments of its 256 points
  (the block lemma), and a point's row of the table depends on that point's row alone, so what point `t` writes is rows
  `256 t … 256 t + 255` of the table of the WHOLE points array. Row `r` lies in the block of point `r / 256`, so the 64 blocks
  cover the result, which therefore ends holding the table.
-/
import proofs.«111285_j72086731096718_1_alg».proof.Proof.Gen.KernelIdeal.Value
import proofs.«111285_j72086731096718_1_alg».proof.Proof.BlockRows

noncomputable section

namespace Cert.SoftAssign.Whole

open Cert.KernelIdeal Cert.KernelIdeal.Gen Idealize.ShloMosaic Idealize.ShloMosaic.TcCoe Idealize.SL.Sem
open Idealize.ShloMosaic.Pipeline (Dat)
open Idealize.ShloMosaic.ValueIdx Cert.SoftAssign

variable (m : (ℓ : Loc nD τ sig) → Buf (Elt Ideal) ℓ) (ρ : Dev nD → PrngReg)

theorem origin_eq : (![0, 0] : Fin 2 → Nat) = fun _ => 0 := funext fun a => by fin_cases a <;> rfl

/-- Where each window's block sits at grid point `t`: the points' and the result's blocks at block-row `t`, the centres'
    block always the whole array (decided over the 64 points). -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- If `x0` is rows `256 T … 256 T + 255` of `X` and `x1` is all of `C`, then what the body stores at `y` is the table of
    `X` and `C` at the array index `i` that `y` has in block-row `T`. -/
theorem stored_is_table_block (X : S16384x512.Idx → EReal) (C : S2048x512.Idx → EReal)
    (x0 : Vec Ideal S256x512 .f32) (x1 : Vec Ideal S2048x512 .f32) (T : ℕ)
    (h0 : ∀ (p : Fin 256) (k : Fin 512) (r : Fin 16384), r.val = T * 256 + p.val → x0 (ix2 p k) = X (ix2 r k))
    (h1 : ∀ (q : Fin 2048) (k : Fin 512), x1 (ix2 q k) = C (ix2 q k))
    (y : S256x2048.Idx) (i : S16384x2048.Idx) (hi0 : (i 0).val = T * 256 + (y 0).val) (hi1 : (i 1).val = (y 1).val) :
    k0_pay1 (F := Ideal) x0 x1 y = table X C i := by
  obtain ⟨p, q, rfl⟩ : ∃ (p : Fin 256) (q : Fin 2048), y = ix2 p q := ⟨y 0, y 1, eq_ix2 y⟩
  obtain ⟨r, q', rfl⟩ : ∃ (r : Fin 16384) (q' : Fin 2048), i = ix2 r q' := ⟨i 0, i 1, eq_ix2 i⟩
  have hq : q' = q := Fin.ext hi1
  subst hq
  have hC : x1 = C := funext fun j => by
    obtain ⟨a, b, rfl⟩ : ∃ (a : Fin 2048) (b : Fin 512), j = ix2 a b := ⟨j 0, j 1, eq_ix2 j⟩
    exact h1 a b
  subst hC
  rw [Block.payload_at, table_apply]
  exact assign_of_row X x0 x1 r p (fun k => h0 p k r hi0) q'

/-- What grid point `t` writes back is block `t` of the table of the arrays as the region finds them. -/
theorem flushed_eq (c : Dev nD) (t : Fin cfg0.N) :
    (dats m 0 c).flushed 2 t
      = ((cfg0.win 2).blk t).view.read (Elt Ideal) (table (V m c main_arg0) (V m c main_arg1)) := by
  rw [Cert.KernelIdeal.Value.flushed2]
  unfold out0_2
  rw [View.canon_unit_zero origin_eq]
  simp only [View.ld_unit_zero (S := S256x512) origin_eq, View.ld_unit_zero (S := S2048x512) origin_eq]
  obtain ⟨e0, e1, e2, e3, e4, e5⟩ := block_places t
  funext j
  show k0_pay1 (F := Ideal) (iblk m c 0 t) (iblk m c 1 t) j
    = table (V m c main_arg0) (V m c main_arg1) (((cfg0.win 2).blk t).view.emb j)
  refine stored_is_table_block (V m c main_arg0) (V m c main_arg1) _ _ t.val ?_ ?_ j _ ?_ ?_
  · intro p k r hr
    show V m c main_arg0 (((cfg0.win 0).blk t).view.emb (ix2 p k)) = V m c main_arg0 (ix2 r k)
    refine congrArg _ (funext fun a => Fin.ext ?_)
    match a with
    | ⟨0, _⟩ => show win0_0.index t (0 : Fin 2) * 256 + 1 * p.val = r.val; omega
    | ⟨1, _⟩ => show win0_0.index t (1 : Fin 2) * 512 + 1 * k.val = k.val; omega
  · intro q k
    show V m c main_arg1 (((cfg0.win 1).blk t).view.emb (ix2 q k)) = V m c main_arg1 (ix2 q k)
    refine congrArg _ (funext fun a => Fin.ext ?_)
    match a with
    | ⟨0, _⟩ => show win0_1.index t (0 : Fin 2) * 2048 + 1 * q.val = q.val; omega
    | ⟨1, _⟩ => show win0_1.index t (1 : Fin 2) * 512 + 1 * k.val = k.val; omega
  · show win0_2.index t (0 : Fin 2) * 256 + 1 * (j 0).val = t.val * 256 + (j 0).val; omega
  · show win0_2.index t (1 : Fin 2) * 2048 + 1 * (j 1).val = (j 1).val; omega

/-- An index of the result is in point `t`'s block iff each coordinate is in the block's range on its axis. -/
theorem mem_block (t : Fin cfg0.N) (i : S16384x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v0).slice (win0_2.rect t)).set ↔ _
  rw [View.set_slice_whole, Rect.mem_set_unit]
  exact Iff.rfl

/-- Every index of the result is in the block of the point its row falls to: row `r` belongs to point `r / 256`. -/
theorem blocks_cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hN : grid0.N = 64 := N_0
  obtain ⟨t, ht⟩ : ∃ t : Fin cfg0.N, t.val = (i 0).val / 256 :=
    ⟨⟨(i 0).val / 256, by show (i 0).val / 256 < grid0.N; omega⟩, rfl⟩
  obtain ⟨e0, e1, e2, e3, e4, e5⟩ := block_places t
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 2048 ≤ (i 1).val ∧ (i 1).val < win0_2.index t (1 : Fin 2) * 2048 + 2048
    omega

/-- After the run the result array holds the table of assignments of the two argument arrays. -/
theorem result_eq (c : Dev nD) :
    (dats m 0 c).arrAt 2 cfg0.N
      = table (m ((c : Thread nD τ).loc main_arg0)) (m ((c : Thread nD τ).loc main_arg1)) :=
  (dats m 0 c).arrAt_eq_of_cover 2 (table (V m c main_arg0) (V m c main_arg1))
    (fun t _ => flushed_eq m c t) blocks_cover

/-- The kernel's run: the result at the table of assignments, the arguments unchanged. -/
theorem run : θ_run defs (onTc (τ := τ) (main (F := Ideal))) ⟨m, fun _ => 0, ρ⟩ fun r => ∀ c : Dev nD,
      r.2.mem ((c : Thread nD τ).loc main_v0)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.SoftAssign.Whole

end
-- ==== Proof.lean ====
/-
  SOFT ASSIGNMENT OF 16384 POINTS TO 2048 CENTRES: the kernel and the reference compute one table.

  Both programs take points `x` (16384 rows of 512 coordinates) and centres `c` (2048 rows of 512) and return, for
  point `r` and centre `q`, the similarity `s r q` of the two divided by the sum of `s r q'` over all centres `q'`, where
  `s r q` is the reciprocal of `1 + d r q` and `d r q = max (‖x r‖² + ‖c q‖² − 2 ⟨x r, c q⟩) 0` is the squared distance by the
  polarisation identity, clipped at zero.

  On the exact extended reals the two differ in three ways, none of which changes a value:
    • the kernel works on 64 blocks of 256 points, each against all the centres; a point's row of the table depends on
      that point alone, so the blocks' tables are the blocks of the whole table, and they cover it (Proof/WholeTable.lean
      over Proof/BlockRows.lean);
    • the kernel narrows both operands of its product and multiplies by the transposed centres, the reference contracts
      `x` with the transposed centres directly: the same sum `∑ k, x r k · c q k`; the row totals are the same sums;
    • the kernel writes the similarity as the quotient `1 / (1 + d)`, the reference as the power `(1 + d / 1) ^ (-1)`: equal
      because the base is at least `1` — a real number `≥ 1`, where both are its inverse, or `+∞`, where both are `0`
      (Proof/CauchyLaw.lean). No operand need be finite, so the precondition is never opened.
  The specification is Proof/SoftAssign.lean; that the reference computes it is Proof/RefTable.lean.
  The idealization rewrote no operation, so that claim is `True`; the three frames are the programs' own runs.
-/
import proofs.«111285_j72086731096718_1_alg».proof.Defs
import proofs.«111285_j72086731096718_1_alg».proof.Proof.Gen.Kernel
import proofs.«111285_j72086731096718_1_alg».proof.Proof.Gen.Kernel.Skeleton
import proofs.«111285_j72086731096718_1_alg».proof.Proof.Gen.Kernel.Launch
import proofs.«111285_j72086731096718_1_alg».proof.Proof.Gen.Kernel.Points
import proofs.«111285_j72086731096718_1_alg».proof.Proof.Gen.Kernel.Frame
import proofs.«111285_j72086731096718_1_alg».proof.Proof.Gen.KernelIdeal
import proofs.«111285_j72086731096718_1_alg».proof.Proof.Gen.KernelIdeal.Skeleton
import proofs.«111285_j72086731096718_1_alg».proof.Proof.Gen.KernelIdeal.Launch
import proofs.«111285_j72086731096718_1_alg».proof.Proof.Gen.KernelIdeal.Points
import proofs.«111285_j72086731096718_1_alg».proof.Proof.Gen.KernelIdeal.Frame
import proofs.«111285_j72086731096718_1_alg».proof.Proof.Gen.ReferenceIdeal
import proofs.«111285_j72086731096718_1_alg».proof.Proof.Gen.Pre_finite_inputs
import proofs.«111285_j72086731096718_1_alg».proof.Proof.Gen.KernelIdeal.Value
import proofs.«111285_j72086731096718_1_alg».proof.Proof.Gen.ReferenceIdeal.Run
import proofs.«111285_j72086731096718_1_alg».proof.Proof.Gen.ReferenceIdeal.Read
import proofs.«111285_j72086731096718_1_alg».proof.Proof.RefTable
import proofs.«111285_j72086731096718_1_alg».proof.Proof.WholeTable
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the points and the centres, both programs end with the table of assignments. -/
theorem algebraic : Cert.algebraic_KernelIdeal_ReferenceIdeal := by
  intro m ρ m' ρ' _ hagree
  refine ⟨_, Cert.SoftAssign.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.SoftAssign.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
